-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x512 : Shape := ⟨2, ![256, 512]⟩
abbrev S512 : Shape := ⟨1, ![512]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S50000x256 .f32) (main_arg1 : IVec S2x800000 32) (main_arg2 : FVec F S256x512 .f32) (main_arg3 : FVec F S256x512 .f32) (main_arg4 : FVec F S512 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S50000x256 : Shape := ⟨2, ![50000, 256]⟩
abbrev S2x800000 : Shape := ⟨2, ![2, 800000]⟩
abbrev S256x512 : Shape := ⟨2, ![256, 512]⟩
abbrev S512 : Shape := ⟨1, ![512]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S50000x512 : Shape := ⟨2, ![50000, 512]⟩
abbrev S2000x256 : Shape := ⟨2, ![2000, 256]⟩
abbrev S2000x512 : Shape := ⟨2, ![2000, 512]⟩
abbrev S1x512 : Shape := ⟨2, ![1, 512]⟩

abbrev nBuf : Space → Nat
  | .hbm => 35
  | .vmem => 9
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x512, .f32⟩
  | .hbm, ⟨3, _⟩ => ⟨S256x512, .f32⟩
  | .hbm, ⟨4, _⟩ => ⟨S512, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x256, .f32⟩
  | .hbm, ⟨33, _⟩ => ⟨S50000x256, .f32⟩
  | .hbm, ⟨34, _⟩ => ⟨S50000x512, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x512, .f32⟩
  | .local _ .vmem, ⟨5, _⟩ => ⟨S256x512, .f32⟩
  | .local _ .vmem, ⟨6, _⟩ => ⟨S512, .f32⟩
  | .local _ .vmem, ⟨7, _⟩ => ⟨S2000x512, .f32⟩
  | .local _ .vmem, ⟨8, _⟩ => ⟨S2000x512, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S2000x256_S256x512_S2000x512_1_0_0_1_n_n_wf : DotDims.WF S2000x256 S256x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S50000x512.size a
  hwx0_5 : ∀ i : grid0.Coords, EltTy.bits .f32 = 32 ∨ (Rect.block (s := S50000x512) S2000x512.size (cc0_transform_5 i) (hinb0_5 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf

abbrev win0_0 : Pipeline.Window sig grid0 :=
  Pipeline.Window.ofSpec (Memref.whole main_v22) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x512 : Shape := ⟨2, ![256, 512]⟩
abbrev S512 : Shape := ⟨1, ![512]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S50000x512 : Shape := ⟨2, ![50000, 512]⟩
abbrev S1x512 : Shape := ⟨2, ![1, 512]⟩

abbrev nBuf : Space → Nat
  | .hbm => 40
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x512, .f32⟩
  | .hbm, ⟨3, _⟩ => ⟨S256x512, .f32⟩
  | .hbm, ⟨4, _⟩ => ⟨S512, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x256, .f32⟩
  | .hbm, ⟨33, _⟩ => ⟨S50000x256, .f32⟩
  | .hbm, ⟨34, _⟩ => ⟨S50000x512, .f32⟩
  | .hbm, ⟨35, _⟩ => ⟨S1x512, .f32⟩
  | .hbm, ⟨36, _⟩ => ⟨S50000x512, .f32⟩
  | .hbm, ⟨37, _⟩ => ⟨S50000x512, .f32⟩
  | .hbm, ⟨38, _⟩ => ⟨S50000x512, .f32⟩
  | .hbm, ⟨39, _⟩ => ⟨S50000x512, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x512_S50000x512_1_0_0_1_n_n_wf : DotDims.WF S50000x256 S256x512 S50000x512 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf

class Facts : Prop extends Facts₀ where

variable [Facts]
-- ==== Proof.LayerSpec.lean ====
/-
  The graph layer's result, stated once, away from both programs.

  Every node `r` of the 50000 has a 256-vector of features `x r` and a 256-vector `mean r` (the average of the
  features of the nodes with an edge into `r`; how it is computed does not matter here). The layer sends node `r` to the
  512-vector whose entry `q` is

      (∑ k, mean r k · W_l k q  +  ∑ k, x r k · W_r k q)  +  b q,

  two matrix products and a bias. The two programs differ only in where they add the bias: one adds it last, the other
  adds it to the first product before the second product. On the extended reals addition is commutative and
  associative without exception, also at the infinities, so the two orders give the same number (`add_bias_last`);
  nothing needs to be finite.
-/
import Idealize.ShloMosaic.PureOps.Ideal
import Idealize.ShloMosaic.Lib.ValueIdx

noncomputable section

namespace Cert.Layer

open Idealize.ShloMosaic Idealize.ShloMosaic.ValueIdx

/-- Entry `(r, q)` of the layer's result: row `r` of the means against column `q` of `wl`, plus row `r` of the
    features against column `q` of `wr`, plus the bias at `q`. -/
def entry (mean x : (⟨2, ![50000, 256]⟩ : Shape).Idx → EReal) (wl wr : (⟨2, ![256, 512]⟩ : Shape).Idx → EReal)
    (b : (⟨1, ![512]⟩ : Shape).Idx → EReal) (r : Fin 50000) (q : Fin 512) : EReal :=
  (∑ k : Fin 256, mean (ix2 r k) * wl (ix2 k q) + ∑ k : Fin 256, x (ix2 r k) * wr (ix2 k q)) + b (ix1 q)

/-- The layer's result as one array: `entry` at the index's two coordinates. -/
def out (mean x : (⟨2, ![50000, 256]⟩ : Shape).Idx → EReal) (wl wr : (⟨2, ![256, 512]⟩ : Shape).Idx → EReal)
    (b : (⟨1, ![512]⟩ : Shape).Idx → EReal) : (⟨2, ![50000, 512]⟩ : Shape).Idx → EReal :=
  fun i => entry mean x wl wr b (i 0) (i 1)

/-- The result array at the index with coordinates `(r, q)` is the entry `(r, q)`. -/
theorem out_apply (mean x : (⟨2, ![50000, 256]⟩ : Shape).Idx → EReal) (wl wr : (⟨2, ![256, 512]⟩ : Shape).Idx → EReal)
    (b : (⟨1, ![512]⟩ : Shape).Idx → EReal) (r : Fin 50000) (q : Fin 512) :
    out mean x wl wr b (ix2 r q) = entry mean x wl wr b r q := rfl

/-- Adding the bias after both products, or between them, is the same sum: `(P + Q) + β = (P + β) + Q` in any
    commutative monoid, so in particular on the extended reals with their infinities. -/
theorem add_bias_last (P Q β : EReal) : (P + β) + Q = (P + Q) + β := add_right_comm P β Q

end Cert.Layer

end
-- ==== Proof.RefLayer.lean ====
/-
  The reference program computes the layer.

  Its last six operations are: the product of the means with `W_l`, the bias laid along every row, their sum, the
  product of the features with `W_r`, and the final sum. Read at an index `(r, q)` through the generated lemmas, each
  product is a sum over the 256 contracted positions `k` of the left operand at `(r, k)` times the right at `(k, q)`,
  and the bias is its entry `q`. That is the layer's entry with the bias added between the two products; moving it to
  the end is the commutativity and associativity of addition on the extended reals.

  The mean itself (a gather of the source rows, a scatter-add onto the destination rows, a count, a quotient) is
  kept whole, as the reference's own stage: the kernel's program computes the very same stage, so it is never opened.
-/
import proofs.«104168_j26680336843515_1_alg».proof.Proof.Gen.ReferenceIdeal.Read
import proofs.«104168_j26680336843515_1_alg».proof.Proof.LayerSpec

noncomputable section

namespace Cert.RefLayer

open Cert.ReferenceIdeal Cert.ReferenceIdeal.Gen Cert.ReferenceIdeal.Read
open Idealize.ShloMosaic Idealize.ShloMosaic.ValueIdx

/-- The left operand's index of either product at output `(r, q)` and contracted position `k` is `(r, k)`. -/
theorem lidx23_eq (r : Fin 50000) (q : Fin 512) (k : Fin 256) :
    lidx_main_v23 (ix2 r q) k = ix2 r k :=
  funext fun a => match a with | ⟨0, _⟩ => rfl | ⟨1, _⟩ => rfl

/-- The right operand's is `(k, q)`. -/
theorem ridx23_eq (r : Fin 50000) (q : Fin 512) (k : Fin 256) :
    ridx_main_v23 (ix2 r q) k = ix2 k q :=
  funext fun a => match a with | ⟨0, _⟩ => rfl | ⟨1, _⟩ => rfl

theorem lidx27_eq (r : Fin 50000) (q : Fin 512) (k : Fin 256) :
    lidx_main_v27 (ix2 r q) k = ix2 r k :=
  funext fun a => match a with | ⟨0, _⟩ => rfl | ⟨1, _⟩ => rfl

theorem ridx27_eq (r : Fin 50000) (q : Fin 512) (k : Fin 256) :
    ridx_main_v27 (ix2 r q) k = ix2 k q :=
  funext fun a => match a with | ⟨0, _⟩ => rfl | ⟨1, _⟩ => rfl

/-- The bias broadcast to a row and then down the rows reads, at `(r, q)`, the bias at `q`. -/
theorem bias_idx_eq (r : Fin 50000) (q : Fin 512) :
    idx_main_v24 (idx_main_v25 (ix2 r q)) = ix1 q :=
  funext fun a => match a with | ⟨0, _⟩ => rfl

/-- The reference's result array is the layer of its own mean stage, the features and the three parameters. -/
theorem result_eq (x0 : (⟨S50000x256, .f32⟩ : BufTy).Contents (Elt Ideal)) (x1 : (⟨S2x800000, .i32⟩ : BufTy).Contents (Elt Ideal))
    (x2 x3 : (⟨S256x512, .f32⟩ : BufTy).Contents (Elt Ideal)) (x4 : (⟨S512, .f32⟩ : BufTy).Contents (Elt Ideal)) :
    val_main_v28 (F := Ideal) x0 x1 x2 x3 x4 = Cert.Layer.out (val_main_v22 (F := Ideal) x0 x1) x0 x2 x3 x4 := by
  funext i
  obtain ⟨r, q, rfl⟩ : ∃ (r : Fin 50000) (q : Fin 512), i = ix2 r q := ⟨i 0, i 1, eq_ix2 i⟩
  rw [val_main_v28_apply, val_main_v26_apply, val_main_v23_apply, val_main_v25_apply, val_main_v24_apply,
    val_main_v27_apply]
  simp only [lidx23_eq, ridx23_eq, lidx27_eq, ridx27_eq, bias_idx_eq]
  exact Cert.Layer.add_bias_last _ _ _

end Cert.RefLayer

end
-- ==== Proof.BlockPayload.lean ====
/-
  What the kernel's body computes on one block of rows.

  At a grid point the body holds a block of 2000 rows of the means, the same 2000 rows of the features, both weight
  matrices whole and the bias. It rounds the four matrices to a shorter float format (the identity on extended
  reals), multiplies means by `W_l` and features by `W_r` on the matrix unit into zero accumulators, adds the two
  products, and adds the bias laid along every row. Read at row `p` of the block and column `q`:

      (∑ k, mean p k · W_l k q  +  ∑ k, x p k · W_r k q)  +  b q.

  A product into a zero accumulator is the plain sum over the contracted axis (`0 + s = s`); the contracted index
  set of the dot record has one axis of extent 256 and is re-indexed by `Fin 256`.
-/
import proofs.«104168_j26680336843515_1_alg».proof.Proof.Gen.KernelIdeal.Skeleton
import proofs.«104168_j26680336843515_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

namespace Cert.BlockPayload

open Cert.KernelIdeal Cert.KernelIdeal.Gen
open Idealize.ShloMosaic Idealize.ShloMosaic.ValueIdx

/-! ## The dot record's operand indices -/

theorem lhs_row (i : S2000x512.Idx) (c : dot_S2000x256_S256x512_S2000x512_1_0_0_1_n_n.contr.Idx) :
    (dot_S2000x256_S256x512_S2000x512_1_0_0_1_n_n.lhsIdx i c 0).val = (i 0).val := by
  unfold DotDims.lhsIdx
  rw [dif_neg (show ¬(0 : Fin S2000x256.rank) ∈ dot_S2000x256_S256x512_S2000x512_1_0_0_1_n_n.lhsBatch by decide),
    dif_pos (show (0 : Fin S2000x256.rank) ∈ dot_S2000x256_S256x512_S2000x512_1_0_0_1_n_n.lhsNonContracting by decide)]
  rfl

theorem lhs_contr (i : S2000x512.Idx) (c : dot_S2000x256_S256x512_S2000x512_1_0_0_1_n_n.contr.Idx) :
    (dot_S2000x256_S256x512_S2000x512_1_0_0_1_n_n.lhsIdx i c 1).val = (c ⟨0, by decide⟩).val :=
  dot_S2000x256_S256x512_S2000x512_1_0_0_1_n_n.lhsIdx_val_of_single rfl i c

theorem rhs_contr (i : S2000x512.Idx) (c : dot_S2000x256_S256x512_S2000x512_1_0_0_1_n_n.contr.Idx) :
    (dot_S2000x256_S256x512_S2000x512_1_0_0_1_n_n.rhsIdx i c 0).val = (c ⟨0, by decide⟩).val :=
  dot_S2000x256_S256x512_S2000x512_1_0_0_1_n_n.rhsIdx_val_of_single rfl i c

theorem rhs_col (i : S2000x512.Idx) (c : dot_S2000x256_S256x512_S2000x512_1_0_0_1_n_n.contr.Idx) :
    (dot_S2000x256_S256x512_S2000x512_1_0_0_1_n_n.rhsIdx i c 1).val = (i 1).val := by
  unfold DotDims.rhsIdx
  rw [dif_neg (show ¬(1 : Fin S256x512.rank) ∈ dot_S2000x256_S256x512_S2000x512_1_0_0_1_n_n.rhsBatch by decide),
    dif_pos (show (1 : Fin S256x512.rank) ∈ dot_S2000x256_S256x512_S2000x512_1_0_0_1_n_n.rhsNonContracting by decide)]
  rfl

/-! ## One block product at an index -/

/-- A block of 2000 rows times a whole weight matrix, into the zero accumulator, at row `p` and column `q`: the sum
    over the 256 contracted positions of the row's entry times the column's. -/
theorem product_apply {φ₁ φ₂ : FTy} (lhs : FVec Ideal S2000x256 φ₁) (rhs : FVec Ideal S256x512 φ₂) (p : Fin 2000) (q : Fin 512) :
    matmul dot_S2000x256_S256x512_S2000x512_1_0_0_1_n_n none lhs rhs (constant (F := Ideal) S2000x512 .f32 0x00000000#32) (ix2 p q)
      = ∑ k : Fin 256, lhs (ix2 p k) * rhs (ix2 k q) := by
  simp only [matmul]
  rw [Ideal.matmul_constant_zero_apply, ← Equiv.sum_comp (contrEquiv1 dot_S2000x256_S256x512_S2000x512_1_0_0_1_n_n 256 rfl rfl).symm]
  refine Finset.sum_congr rfl fun k _ => ?_
  have hk := contrEquiv1_symm_val dot_S2000x256_S256x512_S2000x512_1_0_0_1_n_n 256 rfl rfl k
  have el : dot_S2000x256_S256x512_S2000x512_1_0_0_1_n_n.lhsIdx (ix2 p q) ((contrEquiv1 dot_S2000x256_S256x512_S2000x512_1_0_0_1_n_n 256 rfl rfl).symm k) = ix2 p k :=
    funext fun a => Fin.ext (by
      match a with
      | ⟨0, _⟩ => exact lhs_row _ _
      | ⟨1, _⟩ => exact (lhs_contr _ _).trans hk)
  have er : dot_S2000x256_S256x512_S2000x512_1_0_0_1_n_n.rhsIdx (ix2 p q) ((contrEquiv1 dot_S2000x256_S256x512_S2000x512_1_0_0_1_n_n 256 rfl rfl).symm k) = ix2 k q :=
    funext fun a => Fin.ext (by
      match a with
      | ⟨0, _⟩ => exact (rhs_contr _ _).trans hk
      | ⟨1, _⟩ => exact rhs_col _ _)
  rw [el, er]

/-! ## The body's stored value at an index -/

/-- The value the body stores, at row `p` of the block and column `q`, from the five blocks it loaded. -/
theorem payload_apply (mean x : Vec Ideal S2000x256 .f32) (wl wr : Vec Ideal S256x512 .f32) (b : Vec Ideal S512 .f32)
    (p : Fin 2000) (q : Fin 512) :
    k0_pay1 (F := Ideal) mean x wl wr b (ix2 p q)
      = (∑ k : Fin 256, mean (ix2 p k) * wl (ix2 k q) + ∑ k : Fin 256, x (ix2 p k) * wr (ix2 k q)) + b (ix1 q) := by
  unfold k0_pay1
  rw [addf_apply, addf_apply, product_apply, product_apply, broadcastTo_1b_ab_apply, shapeCast_a_1a_apply]
  simp only [truncf_apply, shapeCast_self]

/-- If, along row `p` and column `q`, the two row blocks hold row `r` of two arrays `M` and `X`, the two weight
    blocks hold the arrays `A` and `B`, and the bias block holds `β`, then the stored value at `(p, q)` is the layer's
    entry `(r, q)` of `M X A B β`. -/
theorem payload_eq_entry (M X : (⟨2, ![50000, 256]⟩ : Shape).Idx → EReal) (A B : (⟨2, ![256, 512]⟩ : Shape).Idx → EReal)
    (β : (⟨1, ![512]⟩ : Shape).Idx → EReal)
    (mean x : Vec Ideal S2000x256 .f32) (wl wr : Vec Ideal S256x512 .f32) (b : Vec Ideal S512 .f32)
    (r : Fin 50000) (p : Fin 2000) (q : Fin 512)
    (hmean : ∀ k : Fin 256, mean (ix2 p k) = M (ix2 r k)) (hx : ∀ k : Fin 256, x (ix2 p k) = X (ix2 r k))
    (hwl : ∀ k : Fin 256, wl (ix2 k q) = A (ix2 k q)) (hwr : ∀ k : Fin 256, wr (ix2 k q) = B (ix2 k q))
    (hb : b (ix1 q) = β (ix1 q)) :
    k0_pay1 (F := Ideal) mean x wl wr b (ix2 p q) = Cert.Layer.entry M X A B β r q := by
  rw [payload_apply]
  unfold Cert.Layer.entry
  simp only [hmean, hx, hwl, hwr, hb]

end Cert.BlockPayload

end
-- ==== Proof.MeanStage.lean ====
/-
  Both programs compute the neighbour means the same way.

  Before its one region the kernel's program runs, on the host, exactly the operations the reference starts with: it
  splits the edge list into sources and destinations, wraps negative sources, gathers the source rows of the
  features, scatter-adds them onto the destination rows of a zero array, scatter-adds ones to count each row's
  incoming edges, and divides each row's sum by the larger of its count and one. The array the region finds in its
  first window is therefore the reference's mean stage of the same two arguments, operation for operation and
  constant for constant; it is compared as a whole and never read at an index.
-/
import proofs.«104168_j26680336843515_1_alg».proof.Proof.Gen.KernelIdeal.Frame
import proofs.«104168_j26680336843515_1_alg».proof.Proof.Gen.ReferenceIdeal.Read
import Idealize.ShloMosaic.Lib.StableHlo.Run

noncomputable section

namespace Cert.MeanStage

open Cert.KernelIdeal Cert.KernelIdeal.Gen
open Idealize.ShloMosaic Idealize.ShloMosaic.TcCoe Idealize.SL.Sem Idealize.ShloMosaic.StableHlo

set_option maxHeartbeats 2000000 in
/-- The means as the region finds them are the reference's mean stage of the features and the edge list as launched. -/
theorem region_mean (m : (ℓ : Loc nD τ sig) → Buf (Elt Ideal) ℓ) (c : Dev nD) :
    (V m c main_v22 : S50000x256.Idx → EReal)
      = Cert.ReferenceIdeal.Read.val_main_v22 (F := Ideal) (m ((c : Thread nD τ).loc main_arg0)) (m ((c : Thread nD τ).loc main_arg1)) := by
  show StableHlo.after hostOps0 (fun b => m (c, b)) (Proc.devRef .tc main_v22) = _
  after_results_simp <;> rfl

end Cert.MeanStage

end
-- ==== Proof.LibSliceRead.lean ====
/-
  A general fact about reading a buffer through a rectangle of it.
-/
import Idealize.ShloMosaic.Signature.View

namespace Idealize.ShloMosaic.View

variable {sig : RefSig} {κ : Kind} {Val : EltTy → Type}

/-- What a rectangle of a whole buffer reads off the buffer's contents `f`, at an index `x` of the rectangle: the
    contents at the buffer index the rectangle sends `x` to. -/
theorem read_slice_whole_apply (b : Ref sig κ) (r : Rect b.ty.shape) (f : b.ty.Contents Val) (x : r.shape.Idx) :
    ((View.whole b).slice r).read Val f x = f (r.emb x) := rfl

end Idealize.ShloMosaic.View
-- ==== Proof.BlockPlace.lean ====
/-
  Where each window's block sits in its array.

  The grid has 25 points. At point `t` the windows of the means, of the features and of the result hold rows
  `2000·t … 2000·t + 1999` of their arrays, all columns; the windows of the two weight matrices and of the bias hold
  their arrays whole at every point. So entry `(p, k)` of a row block is entry `(2000·t + p, k)` of its array, and an
  entry of a whole block is the same entry of its array: on each axis the array coordinate is the block's index
  times the block's extent plus the coordinate inside the block, and the block indices are decided over the 25 points.
  The statements are about each window's rectangle in its array at the point.
-/
import proofs.«104168_j26680336843515_1_alg».proof.Proof.Gen.KernelIdeal.Launch
import Idealize.ShloMosaic.Lib.ValueIdx
import Idealize.ShloMosaic.Lib.Pipeline.Value

noncomputable section

namespace Cert.BlockPlace

open Cert.KernelIdeal Cert.KernelIdeal.Gen
open Idealize.ShloMosaic Idealize.ShloMosaic.TcCoe Idealize.SL.Sem Idealize.ShloMosaic.ValueIdx

/-- The block index of every window at every point, decided over the 25 points: the means, the features and the result
    move down the rows with the point; the weights and the bias stay. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of point `t`'s block is row `2000·t + p` of the array. -/
abbrev row (t : Fin cfg0.N) (p : Fin 2000) : Fin 50000 :=
  ⟨t.val * 2000 + p.val, by
    have ht : t.val < 25 := lt_of_lt_of_eq t.isLt N_0
    have hp : p.val < 2000 := p.isLt
    omega⟩

/-! ## Where each block sits in its array -/

theorem emb_mean (t : Fin cfg0.N) (p : Fin 2000) (k : Fin 256) :
    (win0_0.rect t).emb (ix2 p k) = ix2 (row t p) k := by
  obtain ⟨e0, e1, -⟩ := block_index t
  funext a; apply Fin.ext
  match a with
  | ⟨0, _⟩ => show win0_0.index t (0 : Fin 2) * 2000 + 1 * p.val = t.val * 2000 + p.val; rw [e0]; omega
  | ⟨1, _⟩ => show win0_0.index t (1 : Fin 2) * 256 + 1 * k.val = k.val; rw [e1]; omega

theorem emb_feat (t : Fin cfg0.N) (p : Fin 2000) (k : Fin 256) :
    (win0_1.rect t).emb (ix2 p k) = ix2 (row t p) k := by
  obtain ⟨-, -, e0, e1, -⟩ := block_index t
  funext a; apply Fin.ext
  match a with
  | ⟨0, _⟩ => show win0_1.index t (0 : Fin 2) * 2000 + 1 * p.val = t.val * 2000 + p.val; rw [e0]; omega
  | ⟨1, _⟩ => show win0_1.index t (1 : Fin 2) * 256 + 1 * k.val = k.val; rw [e1]; omega

theorem emb_wl (t : Fin cfg0.N) (k : Fin 256) (q : Fin 512) :
    (win0_2.rect t).emb (ix2 k q) = ix2 k q := by
  obtain ⟨-, -, -, -, e0, e1, -⟩ := block_index t
  funext a; apply Fin.ext
  match a with
  | ⟨0, _⟩ => show win0_2.index t (0 : Fin 2) * 256 + 1 * k.val = k.val; rw [e0]; omega
  | ⟨1, _⟩ => show win0_2.index t (1 : Fin 2) * 512 + 1 * q.val = q.val; rw [e1]; omega

theorem emb_wr (t : Fin cfg0.N) (k : Fin 256) (q : Fin 512) :
    (win0_3.rect t).emb (ix2 k q) = ix2 k q := by
  obtain ⟨-, -, -, -, -, -, e0, e1, -⟩ := block_index t
  funext a; apply Fin.ext
  match a with
  | ⟨0, _⟩ => show win0_3.index t (0 : Fin 2) * 256 + 1 * k.val = k.val; rw [e0]; omega
  | ⟨1, _⟩ => show win0_3.index t (1 : Fin 2) * 512 + 1 * q.val = q.val; rw [e1]; omega

theorem emb_bias (t : Fin cfg0.N) (q : Fin 512) :
    (win0_4.rect t).emb (ix1 q) = ix1 q := by
  obtain ⟨-, -, -, -, -, -, -, -, e0, -⟩ := block_index t
  funext a; apply Fin.ext
  match a with
  | ⟨0, _⟩ => show win0_4.index t (0 : Fin 1) * 512 + 1 * q.val = q.val; rw [e0]; omega

theorem emb_out (t : Fin cfg0.N) (p : Fin 2000) (q : Fin 512) :
    (win0_5.rect t).emb (ix2 p q) = ix2 (row t p) q := by
  obtain ⟨-, -, -, -, -, -, -, -, -, e0, e1⟩ := block_index t
  funext a; apply Fin.ext
  match a with
  | ⟨0, _⟩ => show win0_5.index t (0 : Fin 2) * 2000 + 1 * p.val = t.val * 2000 + p.val; rw [e0]; omega
  | ⟨1, _⟩ => show win0_5.index t (1 : Fin 2) * 512 + 1 * q.val = q.val; rw [e1]; omega

/-- The result window's blocks are never clipped: an index of the block as moved is the same index of the block. -/
theorem xinj_out (t : Fin cfg0.N) (p : Fin 2000) (q : Fin 512) :
    win0_5.xinj (grid0.coords t) (ix2 p q) = ix2 p q :=
  funext fun a => Fin.ext (match a with | ⟨0, _⟩ => rfl | ⟨1, _⟩ => rfl)

end Cert.BlockPlace

end
-- ==== Proof.PointWrites.lean ====
/-
  What one grid point writes back.

  Point `t` writes back the body's stored value of the five blocks it was handed. At row `p` of the block and column
  `q` that value is the sum over `k` of the mean block at `(p, k)` times `W_l` at `(k, q)`, plus the same for the
  feature block and `W_r`, plus the bias at `q`; each block entry is an entry of the array the region found, at row
  `2000·t + p` for the two row blocks. So the point writes back block `t` of the layer of those arrays.
-/
import proofs.«104168_j26680336843515_1_alg».proof.Proof.Gen.KernelIdeal.Value
import proofs.«104168_j26680336843515_1_alg».proof.Proof.LayerSpec
import proofs.«104168_j26680336843515_1_alg».proof.Proof.BlockPayload
import proofs.«104168_j26680336843515_1_alg».proof.Proof.BlockPlace
import proofs.«104168_j26680336843515_1_alg».proof.Proof.LibSliceRead

noncomputable section

namespace Cert.PointWrites

open Cert.KernelIdeal Cert.KernelIdeal.Gen Cert.BlockPlace
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The layer of the arrays as the region finds them. -/
abbrev regionOut (c : Dev nD) : S50000x512.Idx → EReal :=
  Cert.Layer.out (V m c main_v22) (V m c main_arg0) (V m c main_arg2) (V m c main_arg3) (V m c main_arg4)

/-! ## A block's entry is an entry of the array the region found -/

theorem mean_block_apply (c : Dev nD) (t : Fin cfg0.N) (p : Fin 2000) (k : Fin 256) :
    iblk m c 0 t (ix2 p k) = (V m c main_v22 : S50000x256.Idx → EReal) (ix2 (row t p) k) := by
  show ((View.whole main_v22).slice (win0_0.rect t)).read (Elt Ideal) (V m c main_v22) (ix2 p k) = _
  rw [View.read_slice_whole_apply, emb_mean t p k]

theorem feat_block_apply (c : Dev nD) (t : Fin cfg0.N) (p : Fin 2000) (k : Fin 256) :
    iblk m c 1 t (ix2 p k) = (V m c main_arg0 : S50000x256.Idx → EReal) (ix2 (row t p) k) := by
  show ((View.whole main_arg0).slice (win0_1.rect t)).read (Elt Ideal) (V m c main_arg0) (ix2 p k) = _
  rw [View.read_slice_whole_apply, emb_feat t p k]

theorem wl_block_apply (c : Dev nD) (t : Fin cfg0.N) (k : Fin 256) (q : Fin 512) :
    iblk m c 2 t (ix2 k q) = (V m c main_arg2 : S256x512.Idx → EReal) (ix2 k q) := by
  show ((View.whole main_arg2).slice (win0_2.rect t)).read (Elt Ideal) (V m c main_arg2) (ix2 k q) = _
  rw [View.read_slice_whole_apply, emb_wl t k q]

theorem wr_block_apply (c : Dev nD) (t : Fin cfg0.N) (k : Fin 256) (q : Fin 512) :
    iblk m c 3 t (ix2 k q) = (V m c main_arg3 : S256x512.Idx → EReal) (ix2 k q) := by
  show ((View.whole main_arg3).slice (win0_3.rect t)).read (Elt Ideal) (V m c main_arg3) (ix2 k q) = _
  rw [View.read_slice_whole_apply, emb_wr t k q]

theorem bias_block_apply (c : Dev nD) (t : Fin cfg0.N) (q : Fin 512) :
    iblk m c 4 t (ix1 q) = (V m c main_arg4 : S512.Idx → EReal) (ix1 q) := by
  show ((View.whole main_arg4).slice (win0_4.rect t)).read (Elt Ideal) (V m c main_arg4) (ix1 q) = _
  rw [View.read_slice_whole_apply, emb_bias t q]

/-! ## What a point writes back -/

/-- The body's stored value at point `t`, at row `p` of the block and column `q`, is the layer's entry at row
    `2000·t + p` and column `q` of the arrays the region found. -/
theorem point_entry (c : Dev nD) (t : Fin cfg0.N) (p : Fin 2000) (q : Fin 512) :
    k0_pay1 (F := Ideal) (iblk m c 0 t) (iblk m c 1 t) (iblk m c 2 t) (iblk m c 3 t) (iblk m c 4 t) (ix2 p q)
      = Cert.Layer.entry (V m c main_v22) (V m c main_arg0) (V m c main_arg2) (V m c main_arg3) (V m c main_arg4) (row t p) q :=
  Cert.BlockPayload.payload_eq_entry (V m c main_v22) (V m c main_arg0) (V m c main_arg2) (V m c main_arg3) (V m c main_arg4)
    (iblk m c 0 t) (iblk m c 1 t) (iblk m c 2 t) (iblk m c 3 t) (iblk m c 4 t) (row t p) p q
    (fun k => mean_block_apply m c t p k) (fun k => feat_block_apply m c t p k)
    (fun k => wl_block_apply m c t k q) (fun k => wr_block_apply m c t k q) (bias_block_apply m c t q)

/-- The layer of the region's arrays, read through point `t`'s result block at `(p, q)`, is its entry at row
    `2000·t + p` and column `q`. -/
theorem regionOut_block (c : Dev nD) (t : Fin cfg0.N) (p : Fin 2000) (q : Fin 512) :
    ((View.whole main_v23).slice (win0_5.rect t)).read (Elt Ideal) (regionOut m c) (ix2 p q)
      = Cert.Layer.entry (V m c main_v22) (V m c main_arg0) (V m c main_arg2) (V m c main_arg3) (V m c main_arg4) (row t p) q := by
  rw [View.read_slice_whole_apply, emb_out t p q]
  exact Cert.Layer.out_apply (V m c main_v22) (V m c main_arg0) (V m c main_arg2) (V m c main_arg3) (V m c main_arg4) (row t p) q

/-- Point `t` writes back block `t` of the layer of the arrays the region found. -/
theorem flushed_eq (c : Dev nD) (t : Fin cfg0.N) :
    (dats m 0 c).flushed 5 t = ((cfg0.win 5).blk t).view.read (Elt Ideal) (regionOut m c) := by
  rw [Cert.KernelIdeal.Value.flushed5]
  unfold out0_5
  rw [View.canon_unit_zero zero2]
  simp only [View.ld_unit_zero (S := S2000x256) zero2, View.ld_unit_zero (S := S256x512) zero2,
    View.ld_unit_zero (S := S512) zero1]
  funext j
  obtain ⟨p, q, rfl⟩ : ∃ (p : Fin 2000) (q : Fin 512), j = ix2 p q := ⟨j 0, j 1, eq_ix2 j⟩
  show k0_pay1 (F := Ideal) (iblk m c 0 t) (iblk m c 1 t) (iblk m c 2 t) (iblk m c 3 t) (iblk m c 4 t)
        (win0_5.xinj (grid0.coords t) (ix2 p q))
      = ((View.whole main_v23).slice (win0_5.rect t)).read (Elt Ideal) (regionOut m c) (ix2 p q)
  rw [xinj_out t p q, point_entry m c t p q, regionOut_block m c t p q]

end Cert.PointWrites

end
-- ==== Proof.KernelArray.lean ====
/-
  From the kernel's blocks to its whole result array.

  Each of the 25 grid points writes back one block of 2000 rows of the layer of the arrays the region found
  (`PointWrites`). Row `r` of the result lies in the block of point `r / 2000`, so the 25 blocks tile the 50000 rows and
  after the run the whole result array is that layer. The arrays the region found are the reference's mean stage of the
  features and the edge list (`MeanStage`) and the features, the weights and the bias as launched.
-/
import proofs.«104168_j26680336843515_1_alg».proof.Proof.Gen.KernelIdeal.Value
import proofs.«104168_j26680336843515_1_alg».proof.Proof.LayerSpec
import proofs.«104168_j26680336843515_1_alg».proof.Proof.BlockPlace
import proofs.«104168_j26680336843515_1_alg».proof.Proof.PointWrites
import proofs.«104168_j26680336843515_1_alg».proof.Proof.MeanStage

noncomputable section

namespace Cert.KernelArray

open Cert.KernelIdeal Cert.KernelIdeal.Gen Cert.BlockPlace Cert.PointWrites
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The row blocks tile the array -/

/-- An index is in point `t`'s result block iff each coordinate is in the block's range on its axis. -/
theorem mem_block (t : Fin cfg0.N) (i : S50000x512.Idx) :
    i ∈ ((cfg0.win 5).blk t).view.set ↔ ∀ a : Fin 2, win0_5.index t a * S2000x512.size a ≤ (i a).val
      ∧ (i a).val < win0_5.index t a * S2000x512.size a + S2000x512.size a := by
  show i ∈ ((View.whole main_v23).slice (win0_5.rect t)).set ↔ _
  rw [View.set_slice_whole, Rect.mem_set_unit]
  exact Iff.rfl

/-- Every index of the result is in the block of the point its row falls in, `row / 2000`. -/
theorem covered (i : S50000x512.Idx) :
    ∃ t : Fin cfg0.N, (cfg0.win 5).flush t = true ∧ i ∈ ((cfg0.win 5).blk t).view.set := by
  have hi0 : (i 0).val < 50000 := (i 0).isLt
  have hi1 : (i 1).val < 512 := (i 1).isLt
  have hlt : (i 0).val / 2000 < cfg0.N := lt_of_lt_of_eq (by omega : (i 0).val / 2000 < 25) N_0.symm
  refine ⟨⟨(i 0).val / 2000, hlt⟩, flush0_5 _, ?_⟩
  rw [mem_block]
  obtain ⟨-, -, -, -, -, -, -, -, -, e0, e1⟩ := block_index ⟨(i 0).val / 2000, hlt⟩
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, hlt⟩ (1 : Fin 2) * 512 ≤ (i 1).val
      ∧ (i 1).val < win0_5.index ⟨(i 0).val / 2000, hlt⟩ (1 : Fin 2) * 512 + 512
    rw [e1]; omega

/-! ## The result array, and the run -/

/-- After the run the result array is the layer of the arrays the region found. -/
theorem final (c : Dev nD) : (dats m 0 c).arrAt 5 cfg0.N = regionOut m c :=
  (dats m 0 c).arrAt_eq_of_cover 5 (regionOut m c) (fun t _ => flushed_eq m c t) covered

/-- The layer depends on its five arrays only. -/
theorem out_congr {M M' X X' : (⟨2, ![50000, 256]⟩ : Shape).Idx → EReal} {A A' B B' : (⟨2, ![256, 512]⟩ : Shape).Idx → EReal}
    {β β' : (⟨1, ![512]⟩ : Shape).Idx → EReal} (hM : M = M') (hX : X = X') (hA : A = A') (hB : B = B') (hβ : β = β') :
    Cert.Layer.out M X A B β = Cert.Layer.out M' X' A' B' β' := by
  subst hM hX hA hB hβ; rfl

/-- The arrays the region found are the reference's mean stage and the arguments as launched. -/
theorem regionOut_eq (c : Dev nD) :
    regionOut m c = Cert.Layer.out
      (Cert.ReferenceIdeal.Read.val_main_v22 (F := Ideal) (m ((c : Thread nD τ).loc main_arg0)) (m ((c : Thread nD τ).loc main_arg1)))
      (m ((c : Thread nD τ).loc main_arg0)) (m ((c : Thread nD τ).loc main_arg2)) (m ((c : Thread nD τ).loc main_arg3))
      (m ((c : Thread nD τ).loc main_arg4)) :=
  out_congr (Cert.MeanStage.region_mean m c) (V_main_arg0 m c) (V_main_arg2 m c) (V_main_arg3 m c) (V_main_arg4 m c)

/-- The kernel program's run: the result array ends at the layer of the reference's mean stage and the arguments,
    the arguments unchanged. -/
theorem run : θ_run defs (onTc (τ := τ) (main (F := Ideal))) ⟨m, fun _ => 0, ρ⟩ fun r => ∀ c : Dev nD,
      r.2.mem ((c : Thread nD τ).loc main_v23) = Cert.Layer.out
        (Cert.ReferenceIdeal.Read.val_main_v22 (F := Ideal) (m ((c : Thread nD τ).loc main_arg0)) (m ((c : Thread nD τ).loc main_arg1)))
        (m ((c : Thread nD τ).loc main_arg0)) (m ((c : Thread nD τ).loc main_arg2)) (m ((c : Thread nD τ).loc main_arg3))
        (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (regionOut_eq m c)), (h c).2⟩)
    (Cert.KernelIdeal.Value.run_blocks m ρ)

end Cert.KernelArray

end
-- ==== Proof.lean ====
/-
  A graph layer, fused on the matrix unit, against its plain formulation.

  For 50000 nodes with 256 features each and 800000 directed edges, both programs first average, for every node, the
  features of the nodes with an edge into it (a gather of the source rows, a scatter-add onto the destination rows, a
  count of incoming edges, a quotient by the larger of the count and one). They then send node `r` to the 512-vector

      mean r · W_l  +  b  +  x r · W_r.

  The kernel's program computes the mean on the host exactly as the reference does and hands it, 2000 rows at a time
  over 25 grid points, to a body that forms both products into zero accumulators, adds them, and adds the bias last;
  the reference adds the bias to the first product and the second product after. On the extended reals the two agree
  entry by entry: a product into a zero accumulator is the plain sum over the contracted axis, a change of float
  format is the identity, the 25 row blocks tile the 50000 rows, and `(P + Q) + β = (P + β) + Q` holds in every
  commutative monoid, so also at the infinities. No input needs to be finite for this, and the mean is compared as one
  whole stage of the same two arguments, never opened.

  The modules: `LayerSpec` states the layer's entry once; `RefLayer` reads the reference's result as that entry;
  `BlockPayload` reads the body's stored value at an index of a block; `MeanStage` identifies the two programs' means;
  `BlockPlace` says where each window's block sits in its array; `PointWrites` says what one grid point writes back;
  `KernelArray` goes from the blocks to the whole result array and the kernel program's run; `LibSliceRead` is the
  general fact that a rectangle of a whole buffer reads the buffer at the index the rectangle sends it to. The kernel's ideal pass
  rewrote no operation, so its idealization is its own text read on the extended reals and there is nothing to
  preserve beyond that.
-/
import proofs.«104168_j26680336843515_1_alg».proof.Defs
import proofs.«104168_j26680336843515_1_alg».proof.Proof.Gen.Kernel
import proofs.«104168_j26680336843515_1_alg».proof.Proof.Gen.Kernel.Skeleton
import proofs.«104168_j26680336843515_1_alg».proof.Proof.Gen.Kernel.Launch
import proofs.«104168_j26680336843515_1_alg».proof.Proof.Gen.Kernel.Points
import proofs.«104168_j26680336843515_1_alg».proof.Proof.Gen.Kernel.Frame
import proofs.«104168_j26680336843515_1_alg».proof.Proof.Gen.KernelIdeal
import proofs.«104168_j26680336843515_1_alg».proof.Proof.Gen.KernelIdeal.Skeleton
import proofs.«104168_j26680336843515_1_alg».proof.Proof.Gen.KernelIdeal.Launch
import proofs.«104168_j26680336843515_1_alg».proof.Proof.Gen.KernelIdeal.Points
import proofs.«104168_j26680336843515_1_alg».proof.Proof.Gen.KernelIdeal.Frame
import proofs.«104168_j26680336843515_1_alg».proof.Proof.Gen.KernelIdeal.Value
import proofs.«104168_j26680336843515_1_alg».proof.Proof.Gen.ReferenceIdeal
import proofs.«104168_j26680336843515_1_alg».proof.Proof.Gen.ReferenceIdeal.Run
import proofs.«104168_j26680336843515_1_alg».proof.Proof.Gen.ReferenceIdeal.Read
import proofs.«104168_j26680336843515_1_alg».proof.Proof.Gen.Pre_finite_inputs
import proofs.«104168_j26680336843515_1_alg».proof.Proof.LayerSpec
import proofs.«104168_j26680336843515_1_alg».proof.Proof.RefLayer
import proofs.«104168_j26680336843515_1_alg».proof.Proof.BlockPayload
import proofs.«104168_j26680336843515_1_alg».proof.Proof.MeanStage
import proofs.«104168_j26680336843515_1_alg».proof.Proof.LibSliceRead
import proofs.«104168_j26680336843515_1_alg».proof.Proof.BlockPlace
import proofs.«104168_j26680336843515_1_alg».proof.Proof.PointWrites
import proofs.«104168_j26680336843515_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the same result array: the layer of the
    mean stage of the features and the edge list, the features, the two weight matrices and the bias. The kernel's
    run ends there by `KernelArray.run`; the reference's result is its last stage, which is that layer by
    `RefLayer.result_eq`, at arguments that are the kernel's by the agreement. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.RefLayer.result_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
